-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x800000 32) (main_arg2 : FVec F S800000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S2000x64 : Shape := ⟨2, ![2000, 64]⟩
abbrev S1x64 : Shape := ⟨2, ![1, 64]⟩

abbrev nBuf : Space → Nat
  | .hbm => 61
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S64x64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x1, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S100000x64, .f32⟩
  | .hbm, ⟨24, _⟩ => ⟨S800000x1, .i32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x1, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S100000x64, .f32⟩
  | .hbm, ⟨41, _⟩ => ⟨S800000x1, .i32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S100000x64, .f32⟩
  | .hbm, ⟨58, _⟩ => ⟨S800000x1, .i32⟩
  | .hbm, ⟨59, _⟩ => ⟨S100000x64, .f32⟩
  | .hbm, ⟨60, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S64, .f32⟩
  | .local _ .vmem, ⟨16, _⟩ => ⟨S2000x64, .f32⟩
  | .local _ .vmem, ⟨17, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x64_S64x64_1_0 : S64x64.Transposes [1, 0] S64x64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v17) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S100000x64, .f32⟩
  | .hbm, ⟨23, _⟩ => ⟨S800000x1, .i32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S100000x64, .f32⟩
  | .hbm, ⟨47, _⟩ => ⟨S800000x1, .i32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S800000x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S_, .f32⟩
  | .hbm, ⟨70, _⟩ => ⟨S100000x64, .f32⟩
  | .hbm, ⟨71, _⟩ => ⟨S800000x1, .i32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_cst : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call2_cst : Ref sig .tc := ⟨.hbm, 78, rfl⟩
abbrev main_call2_v0 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«131695_j32590211842558_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.Dense.lean ====
/-
  One dense layer with bias and ReLU, entry by entry, over the extended reals.

  For an [M, 64] array a, a [64, 64] matrix w and a bias b of length 64, the layer's entry (p, q) is

      max ( Σ_{k < 64} a(p, k) · w(k, q)  +  b(q) ,  0 ).

  Row p of the result depends on row p of a only, so the layer of a block of rows is the block of the layer.
  Two operation trees compute it: the matrix unit's product of the two operands (their change of float format is the
  identity here) into a zero accumulator, plus the bias as one row broadcast over all rows, clamped below by a
  splat zero; and the host's plain matrix product plus the bias broadcast in two steps, clamped below by a
  broadcast scalar zero. Both are read at an entry and found to be the formula above; no law of arithmetic is
  used beyond 0 + x = x for the zero accumulator.
-/
import Idealize.ShloMosaic.PureOps.Ideal.Laws
import Idealize.ShloMosaic.Lib.ValueIdx
import Idealize.ShloMosaic.Lib.ValueLayout
import Idealize.ShloMosaic.Lib.Pipeline.Value
import proofs.«131695_j32590211842558_1_alg».proof.Proof.LibMatmulPlain
import proofs.«131695_j32590211842558_1_alg».proof.Proof.LibHostDotPlain

noncomputable section

open scoped BigOperators

namespace Cert.Dense

open Idealize.ShloMosaic Idealize.ShloMosaic.ValueIdx

variable {M : Nat}

/-- The layer, entry by entry. -/
def dense (a : FVec Ideal ⟨2, ![M, 64]⟩ .f32) (w : FVec Ideal ⟨2, ![64, 64]⟩ .f32) (b : FVec Ideal ⟨1, ![64]⟩ .f32) :
    FVec Ideal ⟨2, ![M, 64]⟩ .f32 :=
  fun i => max ((∑ k : Fin 64, a (ix2 (i 0) k) * w (ix2 k (i 1))) + b (ix1 (i 1))) (Ideal.ofBits .f32 0x00000000#32)

/-- The matrix unit's tree: operands cast to their own shape and narrowed in format, the product into a zero
    accumulator, the bias as a [1, 64] row broadcast over the rows, the maximum with a splat zero. -/
theorem dense_of_unit (x0 : FVec Ideal ⟨2, ![M, 64]⟩ .f32) (x1 : FVec Ideal ⟨2, ![64, 64]⟩ .f32) (x2 : FVec Ideal ⟨1, ![64]⟩ .f32)
    (h0 : (⟨2, ![M, 64]⟩ : Shape).ShapeCasts ⟨2, ![M, 64]⟩) (h1 : (⟨2, ![64, 64]⟩ : Shape).ShapeCasts ⟨2, ![64, 64]⟩)
    (hb : FTy.bits .bf16 < FTy.bits .f32)
    (h2 : (⟨1, ![64]⟩ : Shape).ShapeCasts ⟨2, ![1, 64]⟩) (h3 : (⟨2, ![1, 64]⟩ : Shape).Broadcasts ⟨2, ![M, 64]⟩) :
    maximumf
      (addf
        (matmul (DotDims.plain M 64 64) none (truncf .bf16 (shapeCast ⟨2, ![M, 64]⟩ x0 h0) hb)
          (truncf .bf16 (shapeCast ⟨2, ![64, 64]⟩ x1 h1) hb) (constant (F := Ideal) ⟨2, ![M, 64]⟩ .f32 0x00000000#32))
        (broadcastTo ⟨2, ![M, 64]⟩ (shapeCast ⟨2, ![1, 64]⟩ x2 h2) h3))
      (broadcast ⟨2, ![M, 64]⟩ (Scalar.ofBits (F := Ideal) .f32 0x00000000#32))
    = dense x0 x1 x2 := by
  funext j
  obtain ⟨p, q, rfl⟩ : ∃ (p : Fin M) (q : Fin 64), j = ix2 p q := ⟨j 0, j 1, eq_ix2 j⟩
  rw [shapeCast_self, shapeCast_self]
  show max (matmul (DotDims.plain M 64 64) none (truncf .bf16 x0 hb) (truncf .bf16 x1 hb)
      (constant (F := Ideal) ⟨2, ![M, 64]⟩ .f32 0x00000000#32) (ix2 p q)
      + broadcastTo ⟨2, ![M, 64]⟩ (shapeCast ⟨2, ![1, 64]⟩ x2 h2) h3 (ix2 p q)) _ = _
  rw [MatmulPlain.matmul_zero_apply, broadcastTo_1b_ab_apply, shapeCast_a_1a_apply]
  rfl

/-- The host's tree: the plain product, the bias broadcast to a [1, 64] row and then over the rows, the maximum
    with a broadcast scalar zero. -/
theorem dense_of_host (a : FVec Ideal ⟨2, ![M, 64]⟩ .f32) (w : FVec Ideal ⟨2, ![64, 64]⟩ .f32) (b : FVec Ideal ⟨1, ![64]⟩ .f32)
    (h1 : (⟨1, ![64]⟩ : Shape).BroadcastsInDim ⟨2, ![1, 64]⟩ (![1] : Fin 1 → Fin 2))
    (h2 : (⟨2, ![1, 64]⟩ : Shape).BroadcastsInDim ⟨2, ![M, 64]⟩ (![0, 1] : Fin 2 → Fin 2))
    (h3 : (⟨0, ![]⟩ : Shape).BroadcastsInDim ⟨2, ![M, 64]⟩ (![] : Fin 0 → Fin 2)) :
    maximumf
      (addf (Host.dotGeneral (F := Ideal) (DotDims.plain M 64 64) none a w)
        (broadcastInDim ⟨2, ![M, 64]⟩ ![0, 1] h2 (broadcastInDim ⟨2, ![1, 64]⟩ ![1] h1 b)))
      (broadcastInDim ⟨2, ![M, 64]⟩ ![] h3 (constant (F := Ideal) ⟨0, ![]⟩ .f32 0x00000000#32))
    = dense a w b := by
  funext j
  obtain ⟨p, q, rfl⟩ : ∃ (p : Fin M) (q : Fin 64), j = ix2 p q := ⟨j 0, j 1, eq_ix2 j⟩
  show max (Host.dotGeneral (F := Ideal) (DotDims.plain M 64 64) none a w (ix2 p q)
      + broadcastInDim ⟨2, ![M, 64]⟩ ![0, 1] h2 (broadcastInDim ⟨2, ![1, 64]⟩ ![1] h1 b) (ix2 p q))
      (broadcastInDim ⟨2, ![M, 64]⟩ ![] h3 (constant (F := Ideal) ⟨0, ![]⟩ .f32 0x00000000#32) (ix2 p q)) = _
  rw [HostDotPlain.dotGeneral_apply,
    broadcastInDim_apply _ h2 _ (ix2 p q) (ix2 (0 : Fin 1) q) (fun ax => match ax with
      | ⟨0, _⟩ => by show 0 = if (1 : Nat) = 1 then 0 else p.val; rw [if_pos rfl]
      | ⟨1, _⟩ => by show q.val = if (64 : Nat) = 1 then 0 else q.val; rw [if_neg (by decide)]),
    broadcastInDim_apply _ h1 b (ix2 (0 : Fin 1) q) (ix1 q) (fun ax => match ax with
      | ⟨0, _⟩ => by show q.val = if (64 : Nat) = 1 then 0 else q.val; rw [if_neg (by decide)]),
    broadcastInDim_apply _ h3 _ (ix2 p q) ix0 (fun ax => ax.elim0)]
  rfl

/-- Rows of the layer depend on the same rows of its first operand: if a' is a at rows shifted by o, the layer
    of a' is the layer of a at rows shifted by o. -/
theorem dense_rows {M' : Nat} (a : FVec Ideal ⟨2, ![M, 64]⟩ .f32) (a' : FVec Ideal ⟨2, ![M', 64]⟩ .f32)
    (w : FVec Ideal ⟨2, ![64, 64]⟩ .f32) (b : FVec Ideal ⟨1, ![64]⟩ .f32) (p' : Fin M') (p : Fin M) (q : Fin 64)
    (hrow : ∀ k : Fin 64, a' (ix2 p' k) = a (ix2 p k)) :
    dense a' w b (ix2 p' q) = dense a w b (ix2 p q) := by
  show max ((∑ k : Fin 64, a' (ix2 p' k) * w (ix2 k q)) + b (ix1 q)) (Ideal.ofBits .f32 0x00000000#32)
    = max ((∑ k : Fin 64, a (ix2 p k) * w (ix2 k q)) + b (ix1 q)) (Ideal.ofBits .f32 0x00000000#32)
  rw [Finset.sum_congr rfl fun k _ => congrArg (· * w (ix2 k q)) (hrow k)]

/-- The same for a block read: at an entry j of a block and the entry i of the whole array that j is read from — same
    column, the block's row j 0 being the array's row i 0 —, with the same matrix and bias, the two layers agree. -/
theorem dense_block {M' : Nat} (a : FVec Ideal ⟨2, ![M, 64]⟩ .f32) (a' : FVec Ideal ⟨2, ![M', 64]⟩ .f32)
    (w w' : FVec Ideal ⟨2, ![64, 64]⟩ .f32) (b b' : FVec Ideal ⟨1, ![64]⟩ .f32)
    (j : (⟨2, ![M', 64]⟩ : Shape).Idx) (i : (⟨2, ![M, 64]⟩ : Shape).Idx) (hcol : (i 1).val = (j 1).val)
    (hrow : ∀ k : Fin 64, a' (ix2 (j 0) k) = a (ix2 (i 0) k)) (hw : w' = w) (hb : b' = b) :
    dense a' w' b' j = dense a w b i := by
  subst hw hb
  have e : i 1 = j 1 := Fin.ext hcol
  show max ((∑ k : Fin 64, a' (ix2 (j 0) k) * w' (ix2 k (j 1))) + b' (ix1 (j 1))) (Ideal.ofBits .f32 0x00000000#32)
    = max ((∑ k : Fin 64, a (ix2 (i 0) k) * w' (ix2 k (i 1))) + b' (ix1 (i 1))) (Ideal.ofBits .f32 0x00000000#32)
  rw [e, Finset.sum_congr rfl fun k _ => congrArg (· * w' (ix2 k (j 1))) (hrow k)]

end Cert.Dense

end
-- ==== Proof.Tile.lean ====
/-
  What one grid point's body leaves in the output tile.

  Each of the three pallas calls runs the same body: it loads the point's 2000-row tile x0 of the aggregated
  features, the whole 64 x 64 matrix x1 and the whole bias x2, and stores max(x0 · x1 + x2, 0) over the whole output
  tile in one store. So the output tile after the body is the dense layer (Dense.lean) of the three loaded blocks.
-/
import proofs.«131695_j32590211842558_1_alg».proof.Proof.Gen.KernelIdeal.Frame
import proofs.«131695_j32590211842558_1_alg».proof.Proof.Dense

noncomputable section

namespace Cert.KernelIdeal.Tile

open Idealize.ShloMosaic Cert.KernelIdeal Cert.KernelIdeal.Gen

/-- The offsets of a whole-buffer access of rank two, -/
theorem off2 : (![0, 0] : Fin 2 → Nat) = fun _ => 0 := funext fun a => by fin_cases a <;> rfl
/-- and of rank one, are zero. -/
theorem off1 : (![0] : Fin 1 → Nat) = fun _ => 0 := funext fun a => by fin_cases a; rfl

/-- The arithmetic of the first call's body is the dense layer of what it loaded; -/
theorem pay0 (x0 : Vec Ideal S2000x64 .f32) (x1 : Vec Ideal S64x64 .f32) (x2 : Vec Ideal S64 .f32) :
    k0_pay1 (F := Ideal) x0 x1 x2 = Cert.Dense.dense x0 x1 x2 :=
  Cert.Dense.dense_of_unit x0 x1 x2 _ _ _ _ _
/-- so is the second's, -/
theorem pay1 (x0 : Vec Ideal S2000x64 .f32) (x1 : Vec Ideal S64x64 .f32) (x2 : Vec Ideal S64 .f32) :
    k1_pay1 (F := Ideal) x0 x1 x2 = Cert.Dense.dense x0 x1 x2 :=
  Cert.Dense.dense_of_unit x0 x1 x2 _ _ _ _ _
/-- and the third's. -/
theorem pay2 (x0 : Vec Ideal S2000x64 .f32) (x1 : Vec Ideal S64x64 .f32) (x2 : Vec Ideal S64 .f32) :
    k2_pay1 (F := Ideal) x0 x1 x2 = Cert.Dense.dense x0 x1 x2 :=
  Cert.Dense.dense_of_unit x0 x1 x2 _ _ _ _ _

/-- The first call's output tile after the body: its one store covers the tile, and the loads read whole blocks. -/
theorem tile0 (x0 : Vec Ideal S2000x64 .f32) (x1 : Vec Ideal S64x64 .f32) (x2 : Vec Ideal S64 .f32) :
    out0_3 (F := Ideal) x0 x1 x2 = Cert.Dense.dense x0 x1 x2 := by
  unfold out0_3
  rw [View.canon_unit_zero off2]
  simp only [View.ld_unit_zero (S := S2000x64) off2, View.ld_unit_zero (S := S64x64) off2, View.ld_unit_zero (S := S64) off1]
  exact pay0 x0 x1 x2
/-- The second call's. -/
theorem tile1 (x0 : Vec Ideal S2000x64 .f32) (x1 : Vec Ideal S64x64 .f32) (x2 : Vec Ideal S64 .f32) :
    out1_3 (F := Ideal) x0 x1 x2 = Cert.Dense.dense x0 x1 x2 := by
  unfold out1_3
  rw [View.canon_unit_zero off2]
  simp only [View.ld_unit_zero (S := S2000x64) off2, View.ld_unit_zero (S := S64x64) off2, View.ld_unit_zero (S := S64) off1]
  exact pay1 x0 x1 x2
/-- The third call's. -/
theorem tile2 (x0 : Vec Ideal S2000x64 .f32) (x1 : Vec Ideal S64x64 .f32) (x2 : Vec Ideal S64 .f32) :
    out2_3 (F := Ideal) x0 x1 x2 = Cert.Dense.dense x0 x1 x2 := by
  unfold out2_3
  rw [View.canon_unit_zero off2]
  simp only [View.ld_unit_zero (S := S2000x64) off2, View.ld_unit_zero (S := S64x64) off2, View.ld_unit_zero (S := S64) off1]
  exact pay2 x0 x1 x2

end Cert.KernelIdeal.Tile

end
-- ==== Proof.Layer0.lean ====
/-
  Pallas call 0: the output array after the region is the dense layer of the region's three input arrays.

  The grid has 50 points. Point t reads rows 2000 t … 2000 t + 1999 of the aggregated features (window 0), the whole
  matrix (window 1) and the whole bias (window 2), and writes rows 2000 t … 2000 t + 1999 of the output (window 3).
  The layer of a block of rows is that block of the layer of the whole array, so what point t writes back is
  block t of the dense layer of the arrays as the region finds them; the 50 blocks cover all 100000 rows, so the
  output array ends as the dense layer of the whole input. Stated for any contents V of the buffers at the
  region's entry.
-/
import proofs.«131695_j32590211842558_1_alg».proof.Proof.Tile

noncomputable section

namespace Cert.KernelIdeal.Layer0

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The block indices of the four windows at every point, decided over the grid: windows 0 and 3 are at row block t,
    column block 0; the matrix and the bias are at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the dense layer of the arrays the region finds. -/
theorem flushed (c : Dev nD) (t : Fin cfg0.N) :
    (dat0 V c).flushed 3 t
      = ((cfg0.win 3).blk t).view.read (Elt Ideal)
          (Cert.Dense.dense (M := 100000) (V c main_v17) (V c main_v4) (V c main_arg4)) := by
  show (cfg0.win 3).cut (grid0.coords t) ((dat0 V c).after 3 t) = _
  rw [after0_3, Tile.tile0]
  obtain ⟨e00, e01, e10, e11, e20, e30, e31⟩ := idx t
  funext j
  show Cert.Dense.dense (iblk0 V c 0 t) (iblk0 V c 1 t) (iblk0 V c 2 t) j
    = Cert.Dense.dense (V c main_v17) (V c main_v4) (V c main_arg4) (((cfg0.win 3).blk t).view.emb j)
  refine Cert.Dense.dense_block (V c main_v17) (iblk0 V c 0 t) (V c main_v4) (iblk0 V c 1 t) (V c main_arg4)
    (iblk0 V c 2 t) j (((cfg0.win 3).blk t).view.emb j) ?_ ?_ ?_ ?_
  · -- the column inside the block is the array's column
    show win0_3.index t (1 : Fin 2) * 64 + 1 * (j 1).val = (j 1).val
    rw [e31]; omega
  · -- row r of the input block is the row of the array that row r of the output block is
    intro k
    unfold iblk0
    rw [View.read_apply]
    show V c main_v17 _ = V c main_v17 _
    congr 1
    funext a
    apply Fin.ext
    match a with
    | ⟨0, _⟩ =>
      show win0_0.index t (0 : Fin 2) * 2000 + 1 * (j 0).val = win0_3.index t (0 : Fin 2) * 2000 + 1 * (j 0).val
      rw [e00, e30]
    | ⟨1, _⟩ =>
      show win0_0.index t (1 : Fin 2) * 64 + 1 * k.val = k.val
      rw [e01]; omega
  · -- the matrix's one block is the matrix
    funext y
    unfold iblk0
    rw [View.read_apply]
    show V c main_v4 _ = V c main_v4 y
    congr 1
    funext a
    apply Fin.ext
    match a with
    | ⟨0, _⟩ => show win0_1.index t (0 : Fin 2) * 64 + 1 * (y 0).val = (y 0).val; rw [e10]; omega
    | ⟨1, _⟩ => show win0_1.index t (1 : Fin 2) * 64 + 1 * (y 1).val = (y 1).val; rw [e11]; omega
  · -- the bias's one block is the bias
    funext y
    unfold iblk0
    rw [View.read_apply]
    show V c main_arg4 _ = V c main_arg4 y
    congr 1
    funext a
    apply Fin.ext
    match a with
    | ⟨0, _⟩ => show win0_2.index t (0 : Fin 1) * 64 + 1 * (y 0).val = (y 0).val; rw [e20]; omega

/-- An entry of the output array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v18).slice (win0_3.rect t)).set ↔ _
  rw [View.set_slice_whole, Rect.mem_set_unit]
  exact Iff.rfl

/-- Every entry is in some point's block: row r is in the block of point r / 2000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 50 := N_0
  have ht : (i 0).val / 2000 < cfg0.N := by show _ < grid0.N; rw [hN]; omega
  refine ⟨⟨(i 0).val / 2000, ht⟩, flush0_3 _, ?_⟩
  obtain ⟨-, -, -, -, -, e30, e31⟩ := idx ⟨(i 0).val / 2000, ht⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e31]; omega

/-- THE OUTPUT ARRAY after the region: the dense layer of the aggregated features, the matrix and the bias as the
    region found them. -/
theorem final (c : Dev nD) :
    (dat0 V c).arrAt 3 cfg0.N = Cert.Dense.dense (M := 100000) (V c main_v17) (V c main_v4) (V c main_arg4) :=
  (dat0 V c).arrAt_eq_of_cover 3 _ (fun t _ => flushed V c t) cover

end Cert.KernelIdeal.Layer0

end
-- ==== Proof.Layer1.lean ====
/-
  Pallas call 1: the output array after the region is the dense layer of the region's three input arrays.

  The grid has 50 points. Point t reads rows 2000 t … 2000 t + 1999 of the aggregated features (window 0), the whole
  matrix (window 1) and the whole bias (window 2), and writes rows 2000 t … 2000 t + 1999 of the output (window 3).
  The layer of a block of rows is that block of the layer of the whole array, so what point t writes back is
  block t of the dense layer of the arrays as the region finds them; the 50 blocks cover all 100000 rows, so the
  output array ends as the dense layer of the whole input. Stated for any contents V of the buffers at the
  region's entry.
-/
import proofs.«131695_j32590211842558_1_alg».proof.Proof.Tile

noncomputable section

namespace Cert.KernelIdeal.Layer1

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The block indices of the four windows at every point, decided over the grid: windows 0 and 3 are at row block t,
    column block 0; the matrix and the bias are at block 0. -/
theorem idx : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the dense layer of the arrays the region finds. -/
theorem flushed (c : Dev nD) (t : Fin cfg1.N) :
    (dat1 V c).flushed 3 t
      = ((cfg1.win 3).blk t).view.read (Elt Ideal)
          (Cert.Dense.dense (M := 100000) (V c main_v31) (V c main_v4) (V c main_arg4)) := by
  show (cfg1.win 3).cut (grid1.coords t) ((dat1 V c).after 3 t) = _
  rw [after1_3, Tile.tile1]
  obtain ⟨e00, e01, e10, e11, e20, e30, e31⟩ := idx t
  funext j
  show Cert.Dense.dense (iblk1 V c 0 t) (iblk1 V c 1 t) (iblk1 V c 2 t) j
    = Cert.Dense.dense (V c main_v31) (V c main_v4) (V c main_arg4) (((cfg1.win 3).blk t).view.emb j)
  refine Cert.Dense.dense_block (V c main_v31) (iblk1 V c 0 t) (V c main_v4) (iblk1 V c 1 t) (V c main_arg4)
    (iblk1 V c 2 t) j (((cfg1.win 3).blk t).view.emb j) ?_ ?_ ?_ ?_
  · -- the column inside the block is the array's column
    show win1_3.index t (1 : Fin 2) * 64 + 1 * (j 1).val = (j 1).val
    rw [e31]; omega
  · -- row r of the input block is the row of the array that row r of the output block is
    intro k
    unfold iblk1
    rw [View.read_apply]
    show V c main_v31 _ = V c main_v31 _
    congr 1
    funext a
    apply Fin.ext
    match a with
    | ⟨0, _⟩ =>
      show win1_0.index t (0 : Fin 2) * 2000 + 1 * (j 0).val = win1_3.index t (0 : Fin 2) * 2000 + 1 * (j 0).val
      rw [e00, e30]
    | ⟨1, _⟩ =>
      show win1_0.index t (1 : Fin 2) * 64 + 1 * k.val = k.val
      rw [e01]; omega
  · -- the matrix's one block is the matrix
    funext y
    unfold iblk1
    rw [View.read_apply]
    show V c main_v4 _ = V c main_v4 y
    congr 1
    funext a
    apply Fin.ext
    match a with
    | ⟨0, _⟩ => show win1_1.index t (0 : Fin 2) * 64 + 1 * (y 0).val = (y 0).val; rw [e10]; omega
    | ⟨1, _⟩ => show win1_1.index t (1 : Fin 2) * 64 + 1 * (y 1).val = (y 1).val; rw [e11]; omega
  · -- the bias's one block is the bias
    funext y
    unfold iblk1
    rw [View.read_apply]
    show V c main_arg4 _ = V c main_arg4 y
    congr 1
    funext a
    apply Fin.ext
    match a with
    | ⟨0, _⟩ => show win1_2.index t (0 : Fin 1) * 64 + 1 * (y 0).val = (y 0).val; rw [e20]; omega

/-- An entry of the output array is in point t's block iff each coordinate is in the block's range on its axis. -/
theorem mem_blk (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v32).slice (win1_3.rect t)).set ↔ _
  rw [View.set_slice_whole, Rect.mem_set_unit]
  exact Iff.rfl

/-- Every entry is in some point's block: row r is in the block of point r / 2000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 50 := N_1
  have ht : (i 0).val / 2000 < cfg1.N := by show _ < grid1.N; rw [hN]; omega
  refine ⟨⟨(i 0).val / 2000, ht⟩, flush1_3 _, ?_⟩
  obtain ⟨-, -, -, -, -, e30, e31⟩ := idx ⟨(i 0).val / 2000, ht⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e31]; omega

/-- THE OUTPUT ARRAY after the region: the dense layer of the aggregated features, the matrix and the bias as the
    region found them. -/
theorem final (c : Dev nD) :
    (dat1 V c).arrAt 3 cfg1.N = Cert.Dense.dense (M := 100000) (V c main_v31) (V c main_v4) (V c main_arg4) :=
  (dat1 V c).arrAt_eq_of_cover 3 _ (fun t _ => flushed V c t) cover

end Cert.KernelIdeal.Layer1

end
-- ==== Proof.Layer2.lean ====
/-
  Pallas call 2: the output array after the region is the dense layer of the region's three input arrays.

  The grid has 50 points. Point t reads rows 2000 t … 2000 t + 1999 of the aggregated features (window 0), the whole
  matrix (window 1) and the whole bias (window 2), and writes rows 2000 t … 2000 t + 1999 of the output (window 3).
  The layer of a block of rows is that block of the layer of the whole array, so what point t writes back is
  block t of the dense layer of the arrays as the region finds them; the 50 blocks cover all 100000 rows, so the
  output array ends as the dense layer of the whole input. Stated for any contents V of the buffers at the
  region's entry.
-/
import proofs.«131695_j32590211842558_1_alg».proof.Proof.Tile

noncomputable section

namespace Cert.KernelIdeal.Layer2

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The block indices of the four windows at every point, decided over the grid: windows 0 and 3 are at row block t,
    column block 0; the matrix and the bias are at block 0. -/
theorem idx : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- WHAT POINT t WRITES BACK is block t of the dense layer of the arrays the region finds. -/
theorem flushed (c : Dev nD) (t : Fin cfg2.N) :
    (dat2 V c).flushed 3 t
      = ((cfg2.win 3).blk t).view.read (Elt Ideal)
          (Cert.Dense.dense (M := 100000) (V c main_v45) (V c main_v4) (V c main_arg4)) := by
  show (cfg2.win 3).cut (grid2.coords t) ((dat2 V c).after 3 t) = _
  rw [after2_3, Tile.tile2]
  obtain ⟨e00, e01, e10, e11, e20, e30, e31⟩ := idx t
  funext j
  show Cert.Dense.dense (iblk2 V c 0 t) (iblk2 V c 1 t) (iblk2 V c 2 t) j
    = Cert.Dense.dense (V c main_v45) (V c main_v4) (V c main_arg4) (((cfg2.win 3).blk t).view.emb j)
  refine Cert.Dense.dense_block (V c main_v45) (iblk2 V c 0 t) (V c main_v4) (iblk2 V c 1 t) (V c main_arg4)
    (iblk2 V c 2 t) j (((cfg2.win 3).blk t).view.emb j) ?_ ?_ ?_ ?_
  · -- the column inside the block is the array's column
    show win2_3.index t (1 : Fin 2) * 64 + 1 * (j 1).val = (j 1).val
    rw [e31]; omega
  · -- row r of the input block is the row of the array that row r of the output block is
    intro k
    unfold iblk2
    rw [View.read_apply]
    show V c main_v45 _ = V c main_v45 _
    congr 1
    funext a
    apply Fin.ext
    match a with
    | ⟨0, _⟩ =>
      show win2_0.index t (0 : Fin 2) * 2000 + 1 * (j 0).val = win2_3.index t (0 : Fin 2) * 2000 + 1 * (j 0).val
      rw [e00, e30]
    | ⟨1, _⟩ =>
      show win2_0.index t (1 : Fin 2) * 64 + 1 * k.val = k.val
      rw [e01]; omega
  · -- the matrix's one block is the matrix
    funext y
    unfold iblk2
    rw [View.read_apply]
    show V c main_v4 _ = V c main_v4 y
    congr 1
    funext a
    apply Fin.ext
    match a with
    | ⟨0, _⟩ => show win2_1.index t (0 : Fin 2) * 64 + 1 * (y 0).val = (y 0).val; rw [e10]; omega
    | ⟨1, _⟩ => show win2_1.index t (1 : Fin 2) * 64 + 1 * (y 1).val = (y 1).val; rw [e11]; omega
  · -- the bias's one block is the bias
    funext y
    unfold iblk2
    rw [View.read_apply]
    show V c main_arg4 _ = V c main_arg4 y
    congr 1
    funext a
    apply Fin.ext
    match a with
    | ⟨0, _⟩ => show win2_2.index t (0 : Fin 1) * 64 + 1 * (y 0).val = (y 0).val; rw [e20]; omega

/-- An entry of the output array is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v46).slice (win2_3.rect t)).set ↔ _
  rw [View.set_slice_whole, Rect.mem_set_unit]
  exact Iff.rfl

/-- Every entry is in some point's block: row r is in the block of point r / 2000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 50 := N_2
  have ht : (i 0).val / 2000 < cfg2.N := by show _ < grid2.N; rw [hN]; omega
  refine ⟨⟨(i 0).val / 2000, ht⟩, flush2_3 _, ?_⟩
  obtain ⟨-, -, -, -, -, e30, e31⟩ := idx ⟨(i 0).val / 2000, ht⟩
  rw [mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    rw [e31]; omega

/-- THE OUTPUT ARRAY after the region: the dense layer of the aggregated features, the matrix and the bias as the
    region found them. -/
theorem final (c : Dev nD) :
    (dat2 V c).arrAt 3 cfg2.N = Cert.Dense.dense (M := 100000) (V c main_v45) (V c main_v4) (V c main_arg4) :=
  (dat2 V c).arrAt_eq_of_cover 3 _ (fun t _ => flushed V c t) cover

end Cert.KernelIdeal.Layer2

end
-- ==== Proof.Fold.lean ====
/-
  The kernel's run, with its result named.

  @main is six segments: three stretches of host operations, each followed by a pallas call. The buffer contents at
  the segment boundaries are a fold from the launch memory (W0 … W6 of the frame module): a host stretch applies its
  operations, a region replaces its output array by what its write-backs leave. Every weakly fair execution
  terminates with every unscoped buffer at the last boundary's contents; read at the result buffer and at the five
  arguments, that is: the result is W6 at the result buffer, and the arguments end as launched.
-/
import proofs.«131695_j32590211842558_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Fold

end
-- ==== Proof.Spec.lean ====
/-
  The network as one function of its five arguments, over the extended reals.

  The edge index has two rows: the sources and the destinations of 800000 edges. One round of message passing on
  node features x ([100000, 64]):
    * the source indices, a negative one wrapped around by adding the node count 100000;
    * the messages: for each edge, the edge's weight times the source node's row of x (a row gather);
    * the aggregate: the messages added up into the destination node's row, starting from zero (a scatter-add);
    * the dense layer of the aggregate with the transposed weight matrix and the bias, clamped below by zero.
  The network is three rounds with the same edges, weights, matrix and bias. The gather and the scatter-add are used
  as the host operations they are, never opened: both programs apply the same ones to the same operands.
-/
import proofs.«131695_j32590211842558_1_alg».proof.KernelIdeal
import proofs.«131695_j32590211842558_1_alg».proof.Proof.Gen.KernelIdeal
import proofs.«131695_j32590211842558_1_alg».proof.Proof.Dense
import Idealize.ShloMosaic.PureOps.Ideal

noncomputable section

namespace Cert.Spec

open Idealize.ShloMosaic Cert.KernelIdeal

/-- Row 0 of the edge index: the edges' source nodes. -/
def srcOf (ei : (⟨S2x800000, .i32⟩ : BufTy).Contents (Elt Ideal)) : (⟨S800000, .i32⟩ : BufTy).Contents (Elt Ideal) :=
  shapeCast S800000 (extractStridedSlice S1x800000 ![0, 0] ei Facts₀.slices_S2x800000_S1x800000_0_0)
    Facts₀.shapeCasts_S1x800000_S800000

/-- Row 1 of the edge index: the edges' destination nodes. -/
def dstOf (ei : (⟨S2x800000, .i32⟩ : BufTy).Contents (Elt Ideal)) : (⟨S800000, .i32⟩ : BufTy).Contents (Elt Ideal) :=
  shapeCast S800000 (extractStridedSlice S1x800000 ![1, 0] ei Facts₀.slices_S2x800000_S1x800000_1_0)
    Facts₀.shapeCasts_S1x800000_S800000

/-- The aggregate of one round: the weighted source rows of x added into the destination rows, from zero. -/
def agg (x : (⟨S100000x64, .f32⟩ : BufTy).Contents (Elt Ideal)) (s d : (⟨S800000, .i32⟩ : BufTy).Contents (Elt Ideal))
    (ew : (⟨S800000, .f32⟩ : BufTy).Contents (Elt Ideal)) : (⟨S100000x64, .f32⟩ : BufTy).Contents (Elt Ideal) :=
  Host.scatterAdd scatter_S100000x64_S800000x1_S800000x64_1_0_0_1
    (broadcastInDim S100000x64 ![] Facts₀.bcast_S_S100000x64 (constant (F := Ideal) S_ .f32 0x00000000#32))
    (broadcastInDim S800000x1 ![0] Facts₀.bcast_S800000_S800000x1_0 d)
    (mulf
      (broadcastInDim S800000x64 ![0, 1] Facts₀.bcast_S800000x1_S800000x64_0_1
        (broadcastInDim S800000x1 ![0] Facts₀.bcast_S800000_S800000x1_0 ew))
      (Host.gather gather_S100000x64_S800000x1_S800000x64_1_0_n_n_0_1_164 x
        (broadcastInDim S800000x1 ![0] Facts₀.bcast_S800000_S800000x1_0
          (select
            (cmpi .slt s (broadcastInDim S800000 ![] Facts₀.bcast_S_S800000 (constantI S_ 32 0#32)))
            (addi s (broadcastInDim S800000 ![] Facts₀.bcast_S_S800000 (constantI S_ 32 100000#32)))
            s))))

/-- One round: the dense layer of the aggregate. -/
def round (x : (⟨S100000x64, .f32⟩ : BufTy).Contents (Elt Ideal)) (s d : (⟨S800000, .i32⟩ : BufTy).Contents (Elt Ideal))
    (ew : (⟨S800000, .f32⟩ : BufTy).Contents (Elt Ideal)) (wt : (⟨S64x64, .f32⟩ : BufTy).Contents (Elt Ideal))
    (b : (⟨S64, .f32⟩ : BufTy).Contents (Elt Ideal)) : (⟨S100000x64, .f32⟩ : BufTy).Contents (Elt Ideal) :=
  Cert.Dense.dense (M := 100000) (agg x s d ew) wt b

/-- The weight matrix transposed. -/
def wtOf (w : (⟨S64x64, .f32⟩ : BufTy).Contents (Elt Ideal)) : (⟨S64x64, .f32⟩ : BufTy).Contents (Elt Ideal) :=
  transpose S64x64 [1, 0] w Facts₀.transposes_S64x64_S64x64_1_0

/-- The network: three rounds. -/
def net (x : (⟨S100000x64, .f32⟩ : BufTy).Contents (Elt Ideal)) (ei : (⟨S2x800000, .i32⟩ : BufTy).Contents (Elt Ideal))
    (ew : (⟨S800000, .f32⟩ : BufTy).Contents (Elt Ideal)) (w : (⟨S64x64, .f32⟩ : BufTy).Contents (Elt Ideal))
    (b : (⟨S64, .f32⟩ : BufTy).Contents (Elt Ideal)) : (⟨S100000x64, .f32⟩ : BufTy).Contents (Elt Ideal) :=
  round (round (round x (srcOf ei) (dstOf ei) ew (wtOf w) b) (srcOf ei) (dstOf ei) ew (wtOf w) b)
    (srcOf ei) (dstOf ei) ew (wtOf w) b

end Cert.Spec

end
-- ==== Proof.Walk.lean ====
/-
  The kernel's result is the three-round network of its arguments.

  The buffer contents at @main's segment boundaries are a fold W0 … W6 from the launch memory (the frame module).
  Five buffers are computed or given once and never written again: the source and destination rows of the edge index
  (computed by the first stretch), the edge weights and the bias (arguments), and the transposed weight matrix
  (computed by the first stretch). At every boundary they hold the same functions of the arguments: a later stretch
  writes none of them, and a region writes only its output array (the matrix and the bias are input arrays of every
  region and end as entered; the others are no array of any region).

  Each stretch ends by scatter-adding into its aggregate buffer: read through the stretch's operations, that buffer is
  the aggregate (Spec.lean) of the previous round's output — of the argument x for the first stretch — with the
  carried sources, destinations and weights. Each region then leaves in its output array the dense layer of the
  aggregate, the matrix and the bias as it finds them: one round. Three rounds give the network.
-/
import proofs.«131695_j32590211842558_1_alg».proof.Proof.Layer0
import proofs.«131695_j32590211842558_1_alg».proof.Proof.Layer1
import proofs.«131695_j32590211842558_1_alg».proof.Proof.Layer2
import proofs.«131695_j32590211842558_1_alg».proof.Proof.Fold
import proofs.«131695_j32590211842558_1_alg».proof.Proof.Spec
import Idealize.ShloMosaic.Lib.StableHlo.Run

noncomputable section

namespace Cert.KernelIdeal.Walk

open Idealize.ShloMosaic Idealize.ShloMosaic.TcCoe Idealize.SL.Sem Cert.KernelIdeal Cert.KernelIdeal.Gen
open Idealize.ShloMosaic.StableHlo Cert.Spec

variable (m : (ℓ : Loc nD τ sig) → Buf (Elt Ideal) ℓ) (ρ : Dev nD → PrngReg)

/-- No operation of a stretch writes a given buffer: the stretch's operations one by one, each result buffer a
    different reference. -/
macro "unwritten" ops:ident : tactic => `(tactic| (
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- What every boundary's contents W carry: the edges' sources and destinations, the edge weights, the transposed
    matrix and the bias, as functions of the launch memory. -/
def Carried (c : Dev nD) (W : Valuation τ sig (Elt Ideal)) : Prop :=
  W (Proc.devRef .tc main_v1) = srcOf (m ((c : Thread nD τ).loc main_arg1))
  ∧ W (Proc.devRef .tc main_v3) = dstOf (m ((c : Thread nD τ).loc main_arg1))
  ∧ W (Proc.devRef .tc main_arg2) = m ((c : Thread nD τ).loc main_arg2)
  ∧ W (Proc.devRef .tc main_v4) = wtOf (m ((c : Thread nD τ).loc main_arg3))
  ∧ W (Proc.devRef .tc main_arg4) = m ((c : Thread nD τ).loc main_arg4)

/-! ## The carried buffers, boundary by boundary -/

/-- After the first stretch: the two rows of the edge index sliced out and flattened, the matrix transposed; the
    stretch writes neither the edge weights nor the bias. -/
theorem carried1 (c : Dev nD) : Carried m c (W1 m ρ c) :=
  ⟨by show StableHlo.after hostOps0 (W0 m ρ c) (Proc.devRef .tc main_v1) = _; after_results; rfl,
   by show StableHlo.after hostOps0 (W0 m ρ c) (Proc.devRef .tc main_v3) = _; after_results; rfl,
   (StableHlo.after_of_forall_not_mem (b := Proc.devRef .tc main_arg2) _ _
      (List.forall_iff_forall_mem.mp (by unwritten hostOps0))).trans rfl,
   by show StableHlo.after hostOps0 (W0 m ρ c) (Proc.devRef .tc main_v4) = _; after_results; rfl,
   (StableHlo.after_of_forall_not_mem (b := Proc.devRef .tc main_arg4) _ _
      (List.forall_iff_forall_mem.mp (by unwritten hostOps0))).trans rfl⟩

/-- Across the first region. -/
theorem carried2 (c : Dev nD) (h : Carried m c (W1 m ρ c)) : Carried m c (W2 m ρ c) :=
  ⟨(W2_of_ne m ρ c main_v1 (by decide)).trans h.1,
   (W2_of_ne m ρ c main_v3 (by decide)).trans h.2.1,
   (W2_of_ne m ρ c main_arg2 (by decide)).trans h.2.2.1,
   ((W2_arr m ρ c 1).trans (((dat0 (V1 m ρ) c).arrAt_in 1 rfl _).trans (A_eq0 (V1 m ρ) c 1))).trans h.2.2.2.1,
   ((W2_arr m ρ c 2).trans (((dat0 (V1 m ρ) c).arrAt_in 2 rfl _).trans (A_eq0 (V1 m ρ) c 2))).trans h.2.2.2.2⟩

/-- Across the second stretch. -/
theorem carried3 (c : Dev nD) (h : Carried m c (W2 m ρ c)) : Carried m c (W3 m ρ c) :=
  ⟨(StableHlo.after_of_forall_not_mem (b := Proc.devRef .tc main_v1) _ _
      (List.forall_iff_forall_mem.mp (by unwritten hostOps1))).trans h.1,
   (StableHlo.after_of_forall_not_mem (b := Proc.devRef .tc main_v3) _ _
      (List.forall_iff_forall_mem.mp (by unwritten hostOps1))).trans h.2.1,
   (StableHlo.after_of_forall_not_mem (b := Proc.devRef .tc main_arg2) _ _
      (List.forall_iff_forall_mem.mp (by unwritten hostOps1))).trans h.2.2.1,
   (StableHlo.after_of_forall_not_mem (b := Proc.devRef .tc main_v4) _ _
      (List.forall_iff_forall_mem.mp (by unwritten hostOps1))).trans h.2.2.2.1,
   (StableHlo.after_of_forall_not_mem (b := Proc.devRef .tc main_arg4) _ _
      (List.forall_iff_forall_mem.mp (by unwritten hostOps1))).trans h.2.2.2.2⟩

/-- Across the second region. -/
theorem carried4 (c : Dev nD) (h : Carried m c (W3 m ρ c)) : Carried m c (W4 m ρ c) :=
  ⟨(W4_of_ne m ρ c main_v1 (by decide)).trans h.1,
   (W4_of_ne m ρ c main_v3 (by decide)).trans h.2.1,
   (W4_of_ne m ρ c main_arg2 (by decide)).trans h.2.2.1,
   ((W4_arr m ρ c 1).trans (((dat1 (V3 m ρ) c).arrAt_in 1 rfl _).trans (A_eq1 (V3 m ρ) c 1))).trans h.2.2.2.1,
   ((W4_arr m ρ c 2).trans (((dat1 (V3 m ρ) c).arrAt_in 2 rfl _).trans (A_eq1 (V3 m ρ) c 2))).trans h.2.2.2.2⟩

/-- Across the third stretch. -/
theorem carried5 (c : Dev nD) (h : Carried m c (W4 m ρ c)) : Carried m c (W5 m ρ c) :=
  ⟨(StableHlo.after_of_forall_not_mem (b := Proc.devRef .tc main_v1) _ _
      (List.forall_iff_forall_mem.mp (by unwritten hostOps2))).trans h.1,
   (StableHlo.after_of_forall_not_mem (b := Proc.devRef .tc main_v3) _ _
      (List.forall_iff_forall_mem.mp (by unwritten hostOps2))).trans h.2.1,
   (StableHlo.after_of_forall_not_mem (b := Proc.devRef .tc main_arg2) _ _
      (List.forall_iff_forall_mem.mp (by unwritten hostOps2))).trans h.2.2.1,
   (StableHlo.after_of_forall_not_mem (b := Proc.devRef .tc main_v4) _ _
      (List.forall_iff_forall_mem.mp (by unwritten hostOps2))).trans h.2.2.2.1,
   (StableHlo.after_of_forall_not_mem (b := Proc.devRef .tc main_arg4) _ _
      (List.forall_iff_forall_mem.mp (by unwritten hostOps2))).trans h.2.2.2.2⟩

/-! ## The aggregates: each stretch's scatter-add, read through the stretch -/

/-- The first stretch's aggregate is that of the argument x. -/
theorem agg1 (c : Dev nD) :
    W1 m ρ c (Proc.devRef .tc main_v17)
      = agg (m ((c : Thread nD τ).loc main_arg0)) (srcOf (m ((c : Thread nD τ).loc main_arg1)))
          (dstOf (m ((c : Thread nD τ).loc main_arg1))) (m ((c : Thread nD τ).loc main_arg2)) := by
  show StableHlo.after hostOps0 (W0 m ρ c) (Proc.devRef .tc main_v17) = _
  after_results_simp
  rfl

/-- The second stretch's aggregate is that of the first region's output, with the buffers it finds. -/
theorem agg3 (c : Dev nD) :
    W3 m ρ c (Proc.devRef .tc main_v31)
      = agg (W2 m ρ c (Proc.devRef .tc main_v18)) (W2 m ρ c (Proc.devRef .tc main_v1))
          (W2 m ρ c (Proc.devRef .tc main_v3)) (W2 m ρ c (Proc.devRef .tc main_arg2)) := by
  show StableHlo.after hostOps1 (W2 m ρ c) (Proc.devRef .tc main_v31) = _
  after_results_simp
  rfl

/-- The third stretch's aggregate is that of the second region's output, with the buffers it finds. -/
theorem agg5 (c : Dev nD) :
    W5 m ρ c (Proc.devRef .tc main_v45)
      = agg (W4 m ρ c (Proc.devRef .tc main_v32)) (W4 m ρ c (Proc.devRef .tc main_v1))
          (W4 m ρ c (Proc.devRef .tc main_v3)) (W4 m ρ c (Proc.devRef .tc main_arg2)) := by
  show StableHlo.after hostOps2 (W4 m ρ c) (Proc.devRef .tc main_v45) = _
  after_results_simp
  rfl

/-! ## The regions: each leaves one round in its output array -/

/-- The first region, entered with the aggregate of x. -/
theorem out2 (c : Dev nD) (h : Carried m c (W1 m ρ c)) (x : (⟨S100000x64, .f32⟩ : BufTy).Contents (Elt Ideal))
    (hx : W1 m ρ c (Proc.devRef .tc main_v17) = agg x (srcOf (m ((c : Thread nD τ).loc main_arg1)))
      (dstOf (m ((c : Thread nD τ).loc main_arg1))) (m ((c : Thread nD τ).loc main_arg2))) :
    W2 m ρ c (Proc.devRef .tc main_v18)
      = round x (srcOf (m ((c : Thread nD τ).loc main_arg1))) (dstOf (m ((c : Thread nD τ).loc main_arg1)))
          (m ((c : Thread nD τ).loc main_arg2)) (wtOf (m ((c : Thread nD τ).loc main_arg3)))
          (m ((c : Thread nD τ).loc main_arg4)) :=
  calc W2 m ρ c (Proc.devRef .tc main_v18)
    _ = (dat0 (V1 m ρ) c).arrAt 3 cfg0.N := W2_arr m ρ c 3
    _ = Cert.Dense.dense (M := 100000) (W1 m ρ c (Proc.devRef .tc main_v17)) (W1 m ρ c (Proc.devRef .tc main_v4))
          (W1 m ρ c (Proc.devRef .tc main_arg4)) := Layer0.final (V1 m ρ) c
    _ = _ := by rw [hx, h.2.2.2.1, h.2.2.2.2]; rfl

/-- The second region. -/
theorem out4 (c : Dev nD) (h : Carried m c (W3 m ρ c)) (x : (⟨S100000x64, .f32⟩ : BufTy).Contents (Elt Ideal))
    (hx : W3 m ρ c (Proc.devRef .tc main_v31) = agg x (srcOf (m ((c : Thread nD τ).loc main_arg1)))
      (dstOf (m ((c : Thread nD τ).loc main_arg1))) (m ((c : Thread nD τ).loc main_arg2))) :
    W4 m ρ c (Proc.devRef .tc main_v32)
      = round x (srcOf (m ((c : Thread nD τ).loc main_arg1))) (dstOf (m ((c : Thread nD τ).loc main_arg1)))
          (m ((c : Thread nD τ).loc main_arg2)) (wtOf (m ((c : Thread nD τ).loc main_arg3)))
          (m ((c : Thread nD τ).loc main_arg4)) :=
  calc W4 m ρ c (Proc.devRef .tc main_v32)
    _ = (dat1 (V3 m ρ) c).arrAt 3 cfg1.N := W4_arr m ρ c 3
    _ = Cert.Dense.dense (M := 100000) (W3 m ρ c (Proc.devRef .tc main_v31)) (W3 m ρ c (Proc.devRef .tc main_v4))
          (W3 m ρ c (Proc.devRef .tc main_arg4)) := Layer1.final (V3 m ρ) c
    _ = _ := by rw [hx, h.2.2.2.1, h.2.2.2.2]; rfl

/-- The third region. -/
theorem out6 (c : Dev nD) (h : Carried m c (W5 m ρ c)) (x : (⟨S100000x64, .f32⟩ : BufTy).Contents (Elt Ideal))
    (hx : W5 m ρ c (Proc.devRef .tc main_v45) = agg x (srcOf (m ((c : Thread nD τ).loc main_arg1)))
      (dstOf (m ((c : Thread nD τ).loc main_arg1))) (m ((c : Thread nD τ).loc main_arg2))) :
    W6 m ρ c (Proc.devRef .tc main_v46)
      = round x (srcOf (m ((c : Thread nD τ).loc main_arg1))) (dstOf (m ((c : Thread nD τ).loc main_arg1)))
          (m ((c : Thread nD τ).loc main_arg2)) (wtOf (m ((c : Thread nD τ).loc main_arg3)))
          (m ((c : Thread nD τ).loc main_arg4)) :=
  calc W6 m ρ c (Proc.devRef .tc main_v46)
    _ = (dat2 (V5 m ρ) c).arrAt 3 cfg2.N := W6_arr m ρ c 3
    _ = Cert.Dense.dense (M := 100000) (W5 m ρ c (Proc.devRef .tc main_v45)) (W5 m ρ c (Proc.devRef .tc main_v4))
          (W5 m ρ c (Proc.devRef .tc main_arg4)) := Layer2.final (V5 m ρ) c
    _ = _ := by rw [hx, h.2.2.2.1, h.2.2.2.2]; rfl

/-! ## The result -/

/-- The result buffer at the last boundary is the network of the launch memory's arguments. -/
theorem result (c : Dev nD) :
    W6 m ρ c (Proc.devRef .tc main_v46)
      = net (m ((c : Thread nD τ).loc main_arg0)) (m ((c : Thread nD τ).loc main_arg1))
          (m ((c : Thread nD τ).loc main_arg2)) (m ((c : Thread nD τ).loc main_arg3))
          (m ((c : Thread nD τ).loc main_arg4)) := by
  have c1 := carried1 m ρ c
  have c2 := carried2 m ρ c c1
  have c3 := carried3 m ρ c c2
  have c4 := carried4 m ρ c c3
  have c5 := carried5 m ρ c c4
  have o2 := out2 m ρ c c1 _ (agg1 m ρ c)
  have a3 := agg3 m ρ c
  rw [o2, c2.1, c2.2.1, c2.2.2.1] at a3
  have o4 := out4 m ρ c c3 _ a3
  have a5 := agg5 m ρ c
  rw [o4, c4.1, c4.2.1, c4.2.2.1] at a5
  exact out6 m ρ c c5 _ a5

/-- THE KERNEL'S RUN: every weakly fair execution terminates with the result buffer at the network of the
    arguments, and the arguments as launched. -/
theorem run : θ_run defs (onTc (τ := τ) (main (F := Ideal))) ⟨m, fun _ => 0, ρ⟩ (fun r => ∀ c : Dev nD,
      r.2.mem ((c.tc : Thread nD τ).loc main_v46)
        = net (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.Fold.run m ρ)

end Cert.KernelIdeal.Walk

end
-- ==== Proof.RefNet.lean ====
/-
  The reference's result is the same three-round network.

  The reference is a straight line of host operations: three times, the same index handling, row gather, weighting
  and scatter-add as the kernel's stretches (the aggregate of Spec.lean, by unfolding the stages one by one), then the
  host's plain matrix product with the transposed weight matrix, the bias broadcast and added, and the maximum with a
  broadcast zero — the host's tree of the dense layer (Dense.lean). So each round's stage is one round of the
  stage before it, and the last stage is the network of the arguments.
-/
import proofs.«131695_j32590211842558_1_alg».proof.Proof.Gen.ReferenceIdeal.Run
import proofs.«131695_j32590211842558_1_alg».proof.Proof.Gen.ReferenceIdeal.Read
import proofs.«131695_j32590211842558_1_alg».proof.Proof.Spec

noncomputable section

namespace Cert.ReferenceIdeal.RefNet

open Idealize.ShloMosaic Cert.ReferenceIdeal Cert.ReferenceIdeal.Gen Cert.ReferenceIdeal.Read Cert.Spec

variable (x0 : (⟨S100000x64, .f32⟩ : BufTy).Contents (Elt Ideal)) (x1 : (⟨S2x800000, .i32⟩ : BufTy).Contents (Elt Ideal))
  (x2 : (⟨S800000, .f32⟩ : BufTy).Contents (Elt Ideal)) (x3 : (⟨S64x64, .f32⟩ : BufTy).Contents (Elt Ideal))
  (x4 : (⟨S64, .f32⟩ : BufTy).Contents (Elt Ideal))

/-- The first scatter-add's stage is the aggregate of x. -/
theorem agg_a : val_main_v16 (F := Ideal) x0 x1 x2 = agg x0 (srcOf x1) (dstOf x1) x2 := rfl
/-- The second's is the aggregate of the first round's stage. -/
theorem agg_b : val_main_v35 (F := Ideal) x0 x1 x2 x3 x4
    = agg (val_main_v22 (F := Ideal) x0 x1 x2 x3 x4) (srcOf x1) (dstOf x1) x2 := rfl
/-- The third's is the aggregate of the second round's stage. -/
theorem agg_c : val_main_v54 (F := Ideal) x0 x1 x2 x3 x4
    = agg (val_main_v41 (F := Ideal) x0 x1 x2 x3 x4) (srcOf x1) (dstOf x1) x2 := rfl

/-- Each round transposes the weight matrix anew. -/
theorem wt_a : val_main_v17 (F := Ideal) x3 = wtOf x3 := rfl
theorem wt_b : val_main_v36 (F := Ideal) x3 = wtOf x3 := rfl
theorem wt_c : val_main_v55 (F := Ideal) x3 = wtOf x3 := rfl

/-- The first round's stage. -/
theorem round_a : val_main_v22 (F := Ideal) x0 x1 x2 x3 x4 = round x0 (srcOf x1) (dstOf x1) x2 (wtOf x3) x4 := by
  unfold val_main_v22 val_main_v21 val_main_v18 val_main_v20 val_main_v19 val_main_call0_v0 val_main_call0_cst
  refine (Cert.Dense.dense_of_host (M := 100000) (val_main_v16 (F := Ideal) x0 x1 x2) (val_main_v17 (F := Ideal) x3) x4 _ _ _).trans ?_
  rw [agg_a, wt_a]
  rfl

/-- The second round's stage is a round of the first's. -/
theorem round_b : val_main_v41 (F := Ideal) x0 x1 x2 x3 x4
    = round (val_main_v22 (F := Ideal) x0 x1 x2 x3 x4) (srcOf x1) (dstOf x1) x2 (wtOf x3) x4 := by
  unfold val_main_v41 val_main_v40 val_main_v37 val_main_v39 val_main_v38 val_main_call1_v0 val_main_call1_cst
  refine (Cert.Dense.dense_of_host (M := 100000) (val_main_v35 (F := Ideal) x0 x1 x2 x3 x4) (val_main_v36 (F := Ideal) x3) x4 _ _ _).trans ?_
  rw [agg_b, wt_b]
  rfl

/-- The third round's stage is a round of the second's. -/
theorem round_c : val_main_v60 (F := Ideal) x0 x1 x2 x3 x4
    = round (val_main_v41 (F := Ideal) x0 x1 x2 x3 x4) (srcOf x1) (dstOf x1) x2 (wtOf x3) x4 := by
  unfold val_main_v60 val_main_v59 val_main_v56 val_main_v58 val_main_v57 val_main_call2_v0 val_main_call2_cst
  refine (Cert.Dense.dense_of_host (M := 100000) (val_main_v54 (F := Ideal) x0 x1 x2 x3 x4) (val_main_v55 (F := Ideal) x3) x4 _ _ _).trans ?_
  rw [agg_c, wt_c]
  rfl

/-- THE REFERENCE'S RESULT is the network of its arguments. -/
theorem result : val_main_v60 (F := Ideal) x0 x1 x2 x3 x4 = net x0 x1 x2 x3 x4 := by
  rw [round_c, round_b, round_a]
  rfl

end Cert.ReferenceIdeal.RefNet

end
-- ==== Proof.lean ====
/-
  A three-round graph message-passing network: the Pallas kernel against its jnp reference, over the extended reals.

  Both programs compute, three times with the same edges, edge weights, weight matrix W and bias b,

      x  ←  max( A(x) · Wᵀ + b , 0 ),      A(x)[v] = Σ_{edges e into v} weight(e) · x[source(e)],

  on node features x of shape [100000, 64]. The kernel leaves the gather, the weighting and the scatter-add A to host
  operations — the very operations the reference uses — and computes max(A · Wᵀ + b, 0) in a pallas call tiled over
  50 blocks of 2000 rows; the reference computes it with a plain matrix product, a broadcast bias and a maximum.
  At an entry both are max(Σ_k A(p, k) · Wᵀ(k, q) + b(q), 0): no law of arithmetic is needed beyond 0 + x = x for the
  matrix unit's zero accumulator, so the precondition (finite inputs) is never opened.

  The modules: Dense (the layer entry by entry and its two operation trees), Tile (a grid point's body), Layer0–2 (a
  region's output array from its blocks), Fold (the kernel's run with its result named), Spec (the network as one
  function), Walk (the kernel's result is the network), RefNet (so is the reference's).
-/
import proofs.«131695_j32590211842558_1_alg».proof.Defs
import proofs.«131695_j32590211842558_1_alg».proof.Proof.Gen.Kernel
import proofs.«131695_j32590211842558_1_alg».proof.Proof.Gen.Kernel.Skeleton
import proofs.«131695_j32590211842558_1_alg».proof.Proof.Gen.Kernel.Launch
import proofs.«131695_j32590211842558_1_alg».proof.Proof.Gen.Kernel.Points
import proofs.«131695_j32590211842558_1_alg».proof.Proof.Gen.Kernel.Frame
import proofs.«131695_j32590211842558_1_alg».proof.Proof.Gen.KernelIdeal
import proofs.«131695_j32590211842558_1_alg».proof.Proof.Gen.KernelIdeal.Skeleton
import proofs.«131695_j32590211842558_1_alg».proof.Proof.Gen.KernelIdeal.Launch
import proofs.«131695_j32590211842558_1_alg».proof.Proof.Gen.KernelIdeal.Points
import proofs.«131695_j32590211842558_1_alg».proof.Proof.Gen.KernelIdeal.Frame
import proofs.«131695_j32590211842558_1_alg».proof.Proof.Gen.ReferenceIdeal
import proofs.«131695_j32590211842558_1_alg».proof.Proof.Gen.Pre_finite_inputs
import proofs.«131695_j32590211842558_1_alg».proof.Proof.Gen.ReferenceIdeal.Run
import proofs.«131695_j32590211842558_1_alg».proof.Proof.Gen.ReferenceIdeal.Read
import proofs.«131695_j32590211842558_1_alg».proof.Proof.Walk
import proofs.«131695_j32590211842558_1_alg».proof.Proof.RefNet
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments, both programs end with the network of the arguments in their result
    buffers, and their arguments as launched. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Walk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.ReferenceIdeal.RefNet.result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
